-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x576x1024 : Shape := ⟨3, ![64, 576, 1024]⟩
abbrev S64x1024 : Shape := ⟨2, ![64, 1024]⟩
abbrev S64x16 : Shape := ⟨2, ![64, 16]⟩
abbrev S64 : Shape := ⟨1, ![64]⟩
abbrev S_ : Shape := ⟨0, ![]⟩

class Facts : Prop where
  bcast_S_S64x576x1024 : S_.BroadcastsInDim S64x576x1024 (![] : Fin 0 → Fin S64x576x1024.rank)
  reducesTo_S64x576x1024_S_d0_1_2 : S64x576x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S64x576x1024 .f32) (main_arg1 : FVec F S64x1024 .f32) (main_arg2 : IVec S64x16 32) (main_arg3 : FVec F S64x1024 .f32) (main_arg4 : IVec S64 1) (main_arg5 : FVec F S_ .f32) : IVec S_ 1 :=
  let main_v0 : FVec F S64x576x1024 .f32 := Host.absf main_arg0
  let main_cst : FVec F S_ .f32 := constant S_ .f32 0x7F800000#32
  let main_v1 : FVec F S64x576x1024 .f32 := broadcastInDim S64x576x1024 ![] bcast_S_S64x576x1024 main_cst
  let main_v2 : IVec S64x576x1024 1 := cmpf .olt main_v0 main_v1
  let main_c : IVec S_ 1 := constantI S_ 1 1#1
  let main_v3 : IVec S_ 1 := (fun x v => Host.reduce IntOp.andi x v reducesTo_S64x576x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg3
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S64x576x1024 : Shape := ⟨3, ![64, 576, 1024]⟩
abbrev S64x1024 : Shape := ⟨2, ![64, 1024]⟩
abbrev S64x16 : Shape := ⟨2, ![64, 16]⟩
abbrev S64 : Shape := ⟨1, ![64]⟩
abbrev S_ : Shape := ⟨0, ![]⟩
abbrev S64x1 : Shape := ⟨2, ![64, 1]⟩
abbrev S64x576 : Shape := ⟨2, ![64, 576]⟩
abbrev S64x16x1 : Shape := ⟨3, ![64, 16, 1]⟩
abbrev S64x16x2 : Shape := ⟨3, ![64, 16, 2]⟩
abbrev S64x1x1024 : Shape := ⟨3, ![64, 1, 1024]⟩
abbrev S64x576x1 : Shape := ⟨3, ![64, 576, 1]⟩
abbrev S4x576x1024 : Shape := ⟨3, ![4, 576, 1024]⟩
abbrev S4x1x1024 : Shape := ⟨3, ![4, 1, 1024]⟩
abbrev S4x576x1 : Shape := ⟨3, ![4, 576, 1]⟩

abbrev nBuf : Space → Nat
  | .hbm => 61
  | .vmem => 8
  | .smem => 0
  | _ => 0

abbrev bufTy : (tb : Table) → Fin (tcTables nBuf tb) → BufTy
  | .hbm, ⟨0, _⟩ => ⟨S64x576x1024, .f32⟩
  | .hbm, ⟨1, _⟩ => ⟨S64x1024, .f32⟩
  | .hbm, ⟨2, _⟩ => ⟨S64x16, .i32⟩
  | .hbm, ⟨3, _⟩ => ⟨S64x1024, .f32⟩
  | .hbm, ⟨4, _⟩ => ⟨S64, .i1⟩
  | .hbm, ⟨5, _⟩ => ⟨S_, .f32⟩
  | .hbm, ⟨6, _⟩ => ⟨S64x1024, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S64, .f32⟩
  | .hbm, ⟨30, _⟩ => ⟨S64x1, .f32⟩
  | .hbm, ⟨31, _⟩ => ⟨S64x1024, .f32⟩
  | .hbm, ⟨32, _⟩ => ⟨S64x1024, .f32⟩
  | .hbm, ⟨33, _⟩ => ⟨S64, .i32⟩
  | .hbm, ⟨34, _⟩ => ⟨S64x1, .i32⟩
  | .hbm, ⟨35, _⟩ => ⟨S_, .f32⟩
  | .hbm, ⟨36, _⟩ => ⟨S64x576, .f32⟩
  | .hbm, ⟨37, _⟩ => ⟨S_, .i32⟩
  | .hbm, ⟨38, _⟩ => ⟨S64x1, .i32⟩
  | .hbm, ⟨39, _⟩ => ⟨S64x1, .i1⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S64x1, .i32⟩
  | .hbm, ⟨44, _⟩ => ⟨S_, .i32⟩
  | .hbm, ⟨45, _⟩ => ⟨S64x16, .i32⟩
  | .hbm, ⟨46, _⟩ => ⟨S64x16, .i1⟩
  | .hbm, ⟨47, _⟩ => ⟨S_, .i32⟩
  | .hbm, ⟨48, _⟩ => ⟨S64x16, .i32⟩
  | .hbm, ⟨49, _⟩ => ⟨S64x16, .i32⟩
  | .hbm, ⟨50, _⟩ => ⟨S64x16, .i32⟩
  | .hbm, ⟨51, _⟩ => ⟨S64x16, .i32⟩
  | .hbm, ⟨52, _⟩ => ⟨S64x16x1, .i32⟩
  | .hbm, ⟨53, _⟩ => ⟨S64x16x1, .i32⟩
  | .hbm, ⟨54, _⟩ => ⟨S64x16x2, .i32⟩
  | .hbm, ⟨55, _⟩ => ⟨S_, .f32⟩
  | .hbm, ⟨56, _⟩ => ⟨S64x16, .f32⟩
  | .hbm, ⟨57, _⟩ => ⟨S64x576, .f32⟩
  | .hbm, ⟨58, _⟩ => ⟨S64x1x1024, .f32⟩
  | .hbm, ⟨59, _⟩ => ⟨S64x576x1, .f32⟩
  | .hbm, ⟨60, _⟩ => ⟨S64x576x1024, .f32⟩
  | .local _ .vmem, ⟨0, _⟩ => ⟨S4x576x1024, .f32⟩
  | .local _ .vmem, ⟨1, _⟩ => ⟨S4x576x1024, .f32⟩
  | .local _ .vmem, ⟨2, _⟩ => ⟨S4x1x1024, .f32⟩
  | .local _ .vmem, ⟨3, _⟩ => ⟨S4x1x1024, .f32⟩
  | .local _ .vmem, ⟨4, _⟩ => ⟨S4x576x1, .f32⟩
  | .local _ .vmem, ⟨5, _⟩ => ⟨S4x576x1, .f32⟩
  | .local _ .vmem, ⟨6, _⟩ => ⟨S4x576x1024, .f32⟩
  | .local _ .vmem, ⟨7, _⟩ => ⟨S4x576x1024, .f32⟩
  | _, _ => ⟨S64x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x576x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x576x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x576x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S64x1024_S64_d1 : S64x1024.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  bcast_S_S64x1024 : S_.BroadcastsInDim S64x1024 (![] : Fin 0 → Fin S64x1024.rank)
  bcast_S_S64x576 : S_.BroadcastsInDim S64x576 (![] : Fin 0 → Fin S64x576.rank)
  bcast_S_S64x16 : S_.BroadcastsInDim S64x16 (![] : Fin 0 → Fin S64x16.rank)
  bcast_S64x1_S64x16_0_1 : S64x1.BroadcastsInDim S64x16 (![0, 1] : Fin 2 → Fin S64x16.rank)
  bcast_S64x16_S64x16x1_0_1 : S64x16.BroadcastsInDim S64x16x1 (![0, 1] : Fin 2 → Fin S64x16x1.rank)
  concatenates_S64x16x1_S64x16x1_S64x16x2_d2 : Shape.Concatenates [S64x16x1, S64x16x1] S64x16x2 2
  shapeCasts_S64x1024_S64x1x1024 : S64x1024.ShapeCasts S64x1x1024
  shapeCasts_S64x576_S64x576x1 : S64x576.ShapeCasts S64x576x1
  inb_S4x576x1024_S4x576x1024_0_0_0 : ∀ a, (![0, 0, 0] : Fin 3 → Nat) a + S4x576x1024.size a ≤ S4x576x1024.size a
  h_S4x576x1024 : 0 < S4x576x1024.numel
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  inb_S4x576x1_S4x576x1_0_0_0 : ∀ a, (![0, 0, 0] : Fin 3 → Nat) a + S4x576x1.size a ≤ S4x576x1.size a
  h_S4x576x1 : 0 < S4x576x1.numel
  shapeCasts_S4x576x1_S4x576x1 : S4x576x1.ShapeCasts S4x576x1
  broadcasts_S4x1x1024_S4x576x1024 : S4x1x1024.Broadcasts S4x576x1024
  broadcasts_S4x576x1_S4x576x1024 : S4x576x1.Broadcasts S4x576x1024
  scatter_S64x576_S64x16x2_S64x16_n_01_01_2_wf : ScatterDims.WF S64x576 S64x16x2 S64x16 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x576x1024.size a ≤ S64x576x1024.size a
  hwx0_0 : ∀ i : grid0.Coords, EltTy.bits .f32 = 32 ∨ (Rect.block (s := S64x576x1024) S4x576x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x1024.size a ≤ S64x1x1024.size a
  hwx0_1 : ∀ i : grid0.Coords, EltTy.bits .f32 = 32 ∨ (Rect.block (s := S64x1x1024) S4x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x576x1.size a ≤ S64x576x1.size a
  hwx0_2 : ∀ i : grid0.Coords, EltTy.bits .f32 = 32 ∨ (Rect.block (s := S64x576x1) S4x576x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x576x1024.size a ≤ S64x576x1024.size a
  hwx0_3 : ∀ i : grid0.Coords, EltTy.bits .f32 = 32 ∨ (Rect.block (s := S64x576x1024) S4x576x1024.size (cc0_transform_3 i) (hinb0_3 i)).WholeWords (EltTy.packing .f32)

variable [Facts₀]

def scatter_S64x576_S64x16x2_S64x16_n_01_01_2 : ScatterDims S64x576 S64x16x2 S64x16 where
  updateWindowDims := []
  insertedWindowDims := [0, 1]
  scatterDimsToOperandDims := [0, 1]
  indexVectorDim := 2
  wf := scatter_S64x576_S64x16x2_S64x16_n_01_01_2_wf

abbrev win0_0 : Pipeline.Window sig grid0 :=
  Pipeline.Window.ofSpec (Memref.whole main_arg0) S4x576x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S4x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S4x576x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S4x576x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x576x1024 : Shape := ⟨3, ![64, 576, 1024]⟩
abbrev S64x1024 : Shape := ⟨2, ![64, 1024]⟩
abbrev S64x16 : Shape := ⟨2, ![64, 16]⟩
abbrev S64 : Shape := ⟨1, ![64]⟩
abbrev S_ : Shape := ⟨0, ![]⟩
abbrev S64x1 : Shape := ⟨2, ![64, 1]⟩
abbrev S64x1x1024 : Shape := ⟨3, ![64, 1, 1024]⟩
abbrev S64x16x1 : Shape := ⟨3, ![64, 16, 1]⟩
abbrev S64x16x2 : Shape := ⟨3, ![64, 16, 2]⟩
abbrev S64x16x1024 : Shape := ⟨3, ![64, 16, 1024]⟩

abbrev nBuf : Space → Nat
  | .hbm => 56
  | .vmem => 0
  | .smem => 0
  | _ => 0

abbrev bufTy : (tb : Table) → Fin (tcTables nBuf tb) → BufTy
  | .hbm, ⟨0, _⟩ => ⟨S64x576x1024, .f32⟩
  | .hbm, ⟨1, _⟩ => ⟨S64x1024, .f32⟩
  | .hbm, ⟨2, _⟩ => ⟨S64x16, .i32⟩
  | .hbm, ⟨3, _⟩ => ⟨S64x1024, .f32⟩
  | .hbm, ⟨4, _⟩ => ⟨S64, .i1⟩
  | .hbm, ⟨5, _⟩ => ⟨S_, .f32⟩
  | .hbm, ⟨6, _⟩ => ⟨S64x1024, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S64, .f32⟩
  | .hbm, ⟨30, _⟩ => ⟨S64x1, .f32⟩
  | .hbm, ⟨31, _⟩ => ⟨S64x1024, .f32⟩
  | .hbm, ⟨32, _⟩ => ⟨S64x1024, .f32⟩
  | .hbm, ⟨33, _⟩ => ⟨S64, .i32⟩
  | .hbm, ⟨34, _⟩ => ⟨S64x1, .i32⟩
  | .hbm, ⟨35, _⟩ => ⟨S64x1x1024, .f32⟩
  | .hbm, ⟨36, _⟩ => ⟨S_, .i32⟩
  | .hbm, ⟨37, _⟩ => ⟨S64x1, .i32⟩
  | .hbm, ⟨38, _⟩ => ⟨S64x1, .i1⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S64x1, .i32⟩
  | .hbm, ⟨43, _⟩ => ⟨S_, .i32⟩
  | .hbm, ⟨44, _⟩ => ⟨S64x16, .i32⟩
  | .hbm, ⟨45, _⟩ => ⟨S64x16, .i1⟩
  | .hbm, ⟨46, _⟩ => ⟨S_, .i32⟩
  | .hbm, ⟨47, _⟩ => ⟨S64x16, .i32⟩
  | .hbm, ⟨48, _⟩ => ⟨S64x16, .i32⟩
  | .hbm, ⟨49, _⟩ => ⟨S64x16, .i32⟩
  | .hbm, ⟨50, _⟩ => ⟨S64x16, .i32⟩
  | .hbm, ⟨51, _⟩ => ⟨S64x16x1, .i32⟩
  | .hbm, ⟨52, _⟩ => ⟨S64x16x1, .i32⟩
  | .hbm, ⟨53, _⟩ => ⟨S64x16x2, .i32⟩
  | .hbm, ⟨54, _⟩ => ⟨S64x16x1024, .f32⟩
  | .hbm, ⟨55, _⟩ => ⟨S64x576x1024, .f32⟩
  | _, _ => ⟨S64x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  reducesTo_S64x1024_S64_d1 : S64x1024.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  bcast_S_S64x1024 : S_.BroadcastsInDim S64x1024 (![] : Fin 0 → Fin S64x1024.rank)
  bcast_S64x1024_S64x1x1024_0_2 : S64x1024.BroadcastsInDim S64x1x1024 (![0, 2] : Fin 2 → Fin S64x1x1024.rank)
  bcast_S_S64x16 : S_.BroadcastsInDim S64x16 (![] : Fin 0 → Fin S64x16.rank)
  bcast_S64x1_S64x16_0_1 : S64x1.BroadcastsInDim S64x16 (![0, 1] : Fin 2 → Fin S64x16.rank)
  bcast_S64x16_S64x16x1_0_1 : S64x16.BroadcastsInDim S64x16x1 (![0, 1] : Fin 2 → Fin S64x16x1.rank)
  concatenates_S64x16x1_S64x16x1_S64x16x2_d2 : Shape.Concatenates [S64x16x1, S64x16x1] S64x16x2 2
  bcast_S64x1x1024_S64x16x1024_0_1_2 : S64x1x1024.BroadcastsInDim S64x16x1024 (![0, 1, 2] : Fin 3 → Fin S64x16x1024.rank)
  scatter_S64x576x1024_S64x16x2_S64x16x1024_2_01_01_2_wf : ScatterDims.WF S64x576x1024 S64x16x2 S64x16x1024 [2] [0, 1] [0, 1] 2

variable [Facts₀]

def scatter_S64x576x1024_S64x16x2_S64x16x1024_2_01_01_2 : ScatterDims S64x576x1024 S64x16x2 S64x16x1024 where
  updateWindowDims := [2]
  insertedWindowDims := [0, 1]
  scatterDimsToOperandDims := [0, 1]
  indexVectorDim := 2
  wf := scatter_S64x576x1024_S64x16x2_S64x16x1024_2_01_01_2_wf

class Facts : Prop extends Facts₀ where

variable [Facts]
-- ==== Proof.KernelArray.lean ====
/-
  The kernel's result array as ONE function of the three arrays its region reads.

  The region streams the image tensor `[64, 576, 1024]` through sixteen grid points, four batches each. At a point the body
  loads the image block `[4, 576, 1024]`, the block `[4, 1, 1024]` of the per-batch direction `δ` and the block `[4, 576, 1]` of the
  per-(batch, row) count, and stores `img + δ · count` with `δ` broadcast over the rows and the count over the columns. All four
  windows move together along the batch axis, so element `(b, n, d)` of the result is
  `img[b, n, d] + δ[b, 0, d] · count[b, n, 0]` (`cell`), whatever the float instance; the sixteen blocks tile the array
  (`covered`), so the array after the run is `cell` everywhere (`final`).
-/
import proofs.«124215_j5935644803459_1_alg».proof.Proof.Gen.KernelIdeal.Value
import Idealize.ShloMosaic.Lib.Pipeline.Value
import Idealize.ShloMosaic.Lib.ValueIdx

noncomputable section

namespace Cert.KernelIdeal.Array

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-- Where element `(b, n, d)` reads the direction array `[64, 1, 1024]`: at `(b, 0, d)`. -/
abbrev dirAt (i : S64x576x1024.Idx) : S64x1x1024.Idx :=
  ix3 (⟨(i 0).val, (i 0).isLt⟩ : Fin 64) (0 : Fin 1) (⟨(i 2).val, (i 2).isLt⟩ : Fin 1024)

/-- Where element `(b, n, d)` reads the count array `[64, 576, 1]`: at `(b, n, 0)`. -/
abbrev cntAt (i : S64x576x1024.Idx) : S64x576x1.Idx :=
  ix3 (⟨(i 0).val, (i 0).isLt⟩ : Fin 64) (⟨(i 1).val, (i 1).isLt⟩ : Fin 576) (0 : Fin 1)

/-- The result array, element by element: the image plus the direction times the count. -/
abbrev cell (img : S64x576x1024.Idx → Elt F .f32) (dir : S64x1x1024.Idx → Elt F .f32) (cnt : S64x576x1.Idx → Elt F .f32) :
    S64x576x1024.Idx → Elt F .f32 :=
  fun i => FloatOps.addf (img i) (FloatOps.mulf (dir (dirAt i)) (cnt (cntAt i)))

/-- The printed index maps, decided over the sixteen points: every window's block index along the batch axis is the
    output's, and the other block indices are zero. -/
theorem windows_move_together : ∀ t : Fin cfg0.N,
    win0_0.index t (0 : Fin 3) = win0_3.index t (0 : Fin 3)
    ∧ win0_1.index t (0 : Fin 3) = win0_3.index t (0 : Fin 3)
    ∧ win0_2.index t (0 : Fin 3) = win0_3.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_3.index t (1 : Fin 3) = 0 ∧ win0_3.index t (2 : Fin 3) = 0 :=
  (by decide +kernel : ∀ t : Fin grid0.N, _)

/-- Every batch block is some point's. -/
theorem block_onto : ∀ q : Fin 16, ∃ t : Fin cfg0.N, win0_3.index t = ![q.val, 0, 0] :=
  (by decide +kernel : ∀ q : Fin 16, ∃ t : Fin grid0.N, win0_3.index t = ![q.val, 0, 0])

/-- WHAT POINT `t` WRITES BACK is block `t` of `cell` of the three arrays as the region finds them. -/
theorem flushed_eq (c : Dev nD) (t : Fin cfg0.N) :
    (dats m 0 c).flushed 3 t
      = ((cfg0.win 3).blk t).view.read (Elt F) (cell (V m c main_arg0) (V m c main_v42) (V m c main_v43)) := by
  show (cfg0.win 3).cut (grid0.coords t) ((dats m 0 c).after 3 t) = _
  rw [after0_3]
  unfold out0_3
  funext j
  refine (canon3_eq (View.ld (iblk m c 0 t) r0_0) (View.ld (iblk m c 1 t) r0_1) (View.ld (iblk m c 2 t) r0_2) j).trans ?_
  simp only [View.ld_unit_zero (S := S4x576x1024) hz3, View.ld_unit_zero (S := S4x1x1024) hz3,
    View.ld_unit_zero (S := S4x576x1) hz3]
  obtain ⟨e0, e1, e2, z01, z02, z11, z12, z21, z22, z31, z32⟩ := windows_move_together t
  have hj0 : (j 0).val < 4 := (j 0).isLt
  have hj1 : (j 1).val < 576 := (j 1).isLt
  have hj2 : (j 2).val < 1024 := (j 2).isLt
  show FloatOps.addf (V m c main_arg0 (((cfg0.win 0).blk t).view.emb (ix3_0 j)))
      (FloatOps.mulf (V m c main_v42 (((cfg0.win 1).blk t).view.emb (ix3_1 j)))
        (V m c main_v43 (((cfg0.win 2).blk t).view.emb (ix3_2 j))))
    = FloatOps.addf (V m c main_arg0 (((cfg0.win 3).blk t).view.emb j))
      (FloatOps.mulf (V m c main_v42 (dirAt (((cfg0.win 3).blk t).view.emb j)))
        (V m c main_v43 (cntAt (((cfg0.win 3).blk t).view.emb j))))
  have h0 : ((cfg0.win 0).blk t).view.emb (ix3_0 j) = ((cfg0.win 3).blk t).view.emb j := by
    funext a; apply Fin.ext
    match a with
    | ⟨0, _⟩ => show win0_0.index t (0 : Fin 3) * 4 + 1 * (j 0).val = win0_3.index t (0 : Fin 3) * 4 + 1 * (j 0).val; omega
    | ⟨1, _⟩ => show win0_0.index t (1 : Fin 3) * 576 + 1 * (j 1).val = win0_3.index t (1 : Fin 3) * 576 + 1 * (j 1).val; omega
    | ⟨2, _⟩ => show win0_0.index t (2 : Fin 3) * 1024 + 1 * (j 2).val = win0_3.index t (2 : Fin 3) * 1024 + 1 * (j 2).val; omega
  have h1 : ((cfg0.win 1).blk t).view.emb (ix3_1 j) = dirAt (((cfg0.win 3).blk t).view.emb j) := by
    funext a; apply Fin.ext
    match a with
    | ⟨0, _⟩ => show win0_1.index t (0 : Fin 3) * 4 + 1 * (j 0).val = win0_3.index t (0 : Fin 3) * 4 + 1 * (j 0).val; omega
    | ⟨1, _⟩ => show win0_1.index t (1 : Fin 3) * 1 + 1 * 0 = 0; omega
    | ⟨2, _⟩ => show win0_1.index t (2 : Fin 3) * 1024 + 1 * (j 2).val = win0_3.index t (2 : Fin 3) * 1024 + 1 * (j 2).val; omega
  have h2 : ((cfg0.win 2).blk t).view.emb (ix3_2 j) = cntAt (((cfg0.win 3).blk t).view.emb j) := by
    funext a; apply Fin.ext
    match a with
    | ⟨0, _⟩ => show win0_2.index t (0 : Fin 3) * 4 + 1 * (j 0).val = win0_3.index t (0 : Fin 3) * 4 + 1 * (j 0).val; omega
    | ⟨1, _⟩ => show win0_2.index t (1 : Fin 3) * 576 + 1 * (j 1).val = win0_3.index t (1 : Fin 3) * 576 + 1 * (j 1).val; omega
    | ⟨2, _⟩ => show win0_2.index t (2 : Fin 3) * 1 + 1 * 0 = 0; omega
  rw [h0, h1, h2]

/-- An index of the array is in point `t`'s block iff each coordinate is in the block's range on its axis. -/
theorem mem_blk (t : Fin cfg0.N) (i : S64x576x1024.Idx) :
    i ∈ ((cfg0.win 3).blk t).view.set ↔ ∀ a : Fin 3, win0_3.index t a * S4x576x1024.size a ≤ (i a).val
      ∧ (i a).val < win0_3.index t a * S4x576x1024.size a + S4x576x1024.size a := by
  show i ∈ ((View.whole main_v44).slice (win0_3.rect t)).set ↔ _
  rw [View.set_slice_whole, Rect.mem_set_unit]
  exact Iff.rfl

/-- The sixteen blocks tile the array: batch `b` is in the block of point `b / 4`. -/
theorem covered (i : S64x576x1024.Idx) :
    ∃ t : Fin cfg0.N, (cfg0.win 3).flush t = true ∧ i ∈ ((cfg0.win 3).blk t).view.set := by
  have hi0 : (i 0).val < 64 := (i 0).isLt
  have hi1 : (i 1).val < 576 := (i 1).isLt
  have hi2 : (i 2).val < 1024 := (i 2).isLt
  obtain ⟨t, ht⟩ := block_onto ⟨(i 0).val / 4, by omega⟩
  have q0 : win0_3.index t (0 : Fin 3) = (i 0).val / 4 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 576 ≤ (i 1).val ∧ (i 1).val < win0_3.index t (1 : Fin 3) * 576 + 576; omega
  | ⟨2, _⟩ => show win0_3.index t (2 : Fin 3) * 1024 ≤ (i 2).val ∧ (i 2).val < win0_3.index t (2 : Fin 3) * 1024 + 1024; omega

/-- THE ARRAY after the run: `cell` of the image, the direction array and the count array as the region finds them. -/
theorem final (c : Dev nD) :
    (dats m 0 c).arrAt 3 cfg0.N = cell (V m c main_arg0) (V m c main_v42) (V m c main_v43) :=
  (dats m 0 c).arrAt_eq_of_cover 3 (cell (V m c main_arg0) (V m c main_v42) (V m c main_v43))
    (fun t _ => flushed_eq m c t) covered

end Cert.KernelIdeal.Array

end
-- ==== Proof.HostArrays.lean ====
/-
  The two arrays the host computes for the region, as terms of the arguments.

  Before the region @main computes, from the arguments alone, the direction `δ = (t̂ − ŝ) · strength · rare` of shape
  `[64, 1024]` (`t̂`, `ŝ` the two normalised inputs) and the index pairs `[64, 16, 2]` (the batch, and the selected row with a
  negative index counted from the end) — by the SAME operations, in the same order, as the reference computes its own
  `δ` and pairs, so the two are stated here with the reference's stage names. The direction array the region reads is `δ`
  reshaped to `[64, 1, 1024]`; the count array is the scatter-add of ones into zeros `[64, 576]` by the pairs, reshaped to
  `[64, 576, 1]`. Both hold at every float instance.
-/
import proofs.«124215_j5935644803459_1_alg».proof.Proof.Gen.KernelIdeal.Frame
import proofs.«124215_j5935644803459_1_alg».proof.Proof.Gen.ReferenceIdeal.Read
import Idealize.ShloMosaic.Lib.StableHlo.Run

noncomputable section

namespace Cert.KernelIdeal.HostArrays

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The count of landing updates per (batch, row): ones scattered, adding, into zeros by the index pairs. -/
abbrev count (pairs : IVec S64x16x2 32) : S64x576.Idx → Elt F .f32 :=
  Host.scatterAdd scatter_S64x576_S64x16x2_S64x16_n_01_01_2
    (broadcastInDim S64x576 ![] bcast_S_S64x576 (constant (F := F) S_ .f32 0x00000000#32)) pairs
    (broadcastInDim S64x16 ![] bcast_S_S64x16 (constant (F := F) S_ .f32 0x3F800000#32))

set_option maxHeartbeats 1000000 in
/-- The direction array the region reads: the reference's `δ` stage of the same arguments, reshaped. -/
theorem V_main_v42 (c : Dev nD) :
    (V m c main_v42 : S64x1x1024.Idx → Elt F .f32)
      = shapeCast S64x1x1024 (Cert.ReferenceIdeal.Read.val_main_v22 (F := F) (m ((c : Thread nD τ).loc main_arg1))
          (m ((c : Thread nD τ).loc main_arg3)) (m ((c : Thread nD τ).loc main_arg4)) (m ((c : Thread nD τ).loc main_arg5)))
          shapeCasts_S64x1024_S64x1x1024 := by
  dsimp only [V, hostOps0]
  after_results_simp
  rfl

set_option maxHeartbeats 1000000 in
/-- The count array the region reads: ones scattered into zeros by the reference's index-pair stage of the same argument,
    reshaped. -/
theorem V_main_v43 (c : Dev nD) :
    (V m c main_v43 : S64x576x1.Idx → Elt F .f32)
      = shapeCast S64x576x1 (count (F := F) (Cert.ReferenceIdeal.Read.val_main_v39 (F := F) (m ((c : Thread nD τ).loc main_arg2))))
          shapeCasts_S64x576_S64x576x1 := by
  dsimp only [V, hostOps0]
  after_results_simp
  rfl

end Cert.KernelIdeal.HostArrays

end
-- ==== Proof.IndexPairs.lean ====
/-
  The first component of every index pair is the batch itself.

  The pairs `[64, 16, 2]` join, along the last axis, the batch numbers `0 … 63` (an iota, passed through jax's
  "negative index counts from the end" select, which leaves a non-negative number alone) and the selected rows. So the
  first component of pair `(e, k)`, read as a signed integer, is `e`: an update of batch `e` can only land in batch `e`.
-/
import proofs.«124215_j5935644803459_1_alg».proof.Proof.Gen.ReferenceIdeal.Read
import Idealize.ShloMosaic.Lib.Pipeline.Value
import Idealize.ShloMosaic.Lib.DynamicIndex
import Idealize.ShloMosaic.Lib.ValueIdx

noncomputable section

namespace Cert.ReferenceIdeal.Pairs

open Cert.ReferenceIdeal Cert.ReferenceIdeal.Gen Cert.ReferenceIdeal.Read
open Idealize.ShloMosaic Idealize.ShloMosaic.ValueIdx

variable {F : FTy → Type} [FloatOps F]

/-- A select on "`x` is negative, read signed" takes its second branch when `x` is not negative. -/
theorem select_slt_zero_of_nonneg {α : Type} (x : BitVec 32) (hx : 0 ≤ x.toInt) (a b : α) :
    Scalar.select (IntOp.cmpi .slt x 0#32) a b = b := by
  have hlt : x.slt 0#32 = false := by
    simp only [BitVec.slt, BitVec.toInt_zero, decide_eq_false_iff_not, Int.not_lt]
    exact hx
  show (if BitVec.ofBool (x.slt 0#32) = 1 then a else b) = b
  rw [hlt]
  rfl

/-- The first component of pair `(e, k)`, read signed, is `e`. -/
theorem pair_first (x2 : (⟨S64x16, .i32⟩ : BufTy).Contents (Elt F)) (e : Fin 64) (k : Fin 16) :
    (val_main_v39 (F := F) x2 (ix3 e k (0 : Fin 2))).toInt = (e.val : Int) := by
  have he : (BitVec.ofNat 32 e.val).toInt = (e.val : Int) := toInt_ofNat_of_lt (by have := e.isLt; omega)
  have h : val_main_v39 (F := F) x2 (ix3 e k (0 : Fin 2)) = val_main_v37 (F := F) (ix3 e k (0 : Fin 1)) := by
    unfold val_main_v39
    exact concatenate_pair_apply_left (t := S64x16x2) (s₁ := S64x16x1) (s₂ := S64x16x1) (2 : Fin 3) _ _
      concatenates_S64x16x1_S64x16x1_S64x16x2_d2 (ix3 e k (0 : Fin 2)) rfl (ix3 e k (0 : Fin 1))
      (fun b => match b with | ⟨0, _⟩ => rfl | ⟨1, _⟩ => rfl | ⟨2, _⟩ => rfl)
  rw [h, val_main_v37_apply, val_main_v36_apply, val_main_v30_apply, val_main_v27_apply, val_main_v24_apply,
    val_main_v23_apply, val_main_v26_apply, val_main_c_apply]
  show (Scalar.select (IntOp.cmpi .slt (BitVec.ofNat 32 e.val) 0#32) _ (BitVec.ofNat 32 e.val)).toInt = _
  rw [select_slt_zero_of_nonneg _ (by rw [he]; omega), he]

end Cert.ReferenceIdeal.Pairs

end
-- ==== Proof.LibPairScatter.lean ====
/-
  A float scatter-add whose scatter indices are PAIRS, read at one element.

  The StableHLO scatter that jax prints for `x.at[rows, cols].add(upd)`: the scatter indices are an array `[E, K, 2]` whose last
  axis holds a pair (first operand coordinate, second operand coordinate), both read as signed integers and NOT clamped;
  an update whose pair is not a position of the operand lands nowhere. Two forms are read here:

  * rows of width `D`: operand `[B, N, D]`, updates `[E, K, D]`; element `(r, n, c)` of the result is the operand's plus the sum of
    `upd[e, k, c]` over the `(e, k)` whose pair is exactly `(r, n)`;
  * single elements: operand `[B, N]`, updates `[E, K]`; element `(r, n)` is the operand's plus the sum of `upd[e, k]` over the
    same `(e, k)`.

  On the extended reals, adding the same value `a` once per landing update is `a` times the number of landing updates
  (`mul_count_eq_sum`; true at the infinities too, the count being a sum of non-negative terms), so a scatter of rows that all
  carry the row's own value `δ[r, c]` equals the operand plus `δ[r, c]` times a scatter of ones into zeros
  (`scatter_rows_eq_count`). Every statement is over abstract extents; nothing here enumerates an index set.
-/
import Idealize.ShloMosaic.PureOps.Ideal
import Idealize.ShloMosaic.Lib.ValueIdx

noncomputable section

open scoped BigOperators

namespace Cert.PairScatter

open Idealize.ShloMosaic Idealize.ShloMosaic.ValueIdx

/-! ## Adding a value once per element of a finite set -/

/-- On the extended reals, `a` times the count of a finite set (the count written as the sum of ones, from zero) is the sum
    of `a` over the set. Distributivity is used only over non-negative summands, where it holds for every `a`. -/
theorem mul_count_eq_sum {ι : Type*} (a : EReal) (S : Finset ι) :
    a * ((0 : EReal) + ∑ _j ∈ S, (1 : EReal)) = ∑ _j ∈ S, a := by
  classical
  rw [zero_add]
  induction S using Finset.induction_on with
  | empty => simp
  | insert x S hx ih =>
    rw [Finset.sum_insert hx, Finset.sum_insert hx,
      EReal.left_distrib_of_nonneg zero_le_one (Finset.sum_nonneg fun _ _ => zero_le_one), mul_one, ih]

/-! ## Where an update lands, for any scatter -/

/-- An update lands on the operand index `i` exactly when, on every axis, its window's start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hall
      have h' := Option.some.inj h
      intro a
      have e := congrArg (fun f : s.Idx => (f a).val) h'
      simp only at e
      have := (hall a).1
      omega
    · exact absurd h (by simp)
  · intro h
    have hall : ∀ a, 0 ≤ d.start j idx a + (d.window j a : Int) ∧
        d.start j idx a + (d.window j a : Int) < (s.size a : Int) := by
      intro a; rw [h a]; have := (i a).isLt; omega
    rw [dif_pos hall]
    refine congrArg some (funext fun a => Fin.ext ?_)
    simp only
    rw [h a]
    omega

/-- An axis of the operand is kept by a scatter exactly when it is not an inserted window axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- Update `p = (e, k)` lands on row `(r, n)`: the two components of its scatter index, read signed, are `r` and `n`. -/
def Lands {E K B N : Nat} (idx : IVec ⟨3, ![E, K, 2]⟩ 32) (r : Fin B) (n : Fin N) (p : Fin E × Fin K) : Prop :=
  (idx (ix3 p.1 p.2 (0 : Fin 2))).toInt = (r.val : Int) ∧ (idx (ix3 p.1 p.2 (1 : Fin 2))).toInt = (n.val : Int)

/-! ## Rows of width `D` -/

section Rows

/-- The dimension numbers of a scatter of rows by index pairs: operand `[B, N, D]`, scatter indices `[E, K, 2]`, updates
    `[E, K, D]`; the updates' axis 2 is the window axis, operand axes 0 and 1 are inserted and are the ones the pair names. -/
abbrev rowsDims (B N D E K : Nat)
    (wf : ScatterDims.WF ⟨3, ![B, N, D]⟩ ⟨3, ![E, K, 2]⟩ ⟨3, ![E, K, D]⟩ [2] [0, 1] [0, 1] 2) :
    ScatterDims ⟨3, ![B, N, D]⟩ ⟨3, ![E, K, 2]⟩ ⟨3, ![E, K, D]⟩ where
  updateWindowDims := [2]
  insertedWindowDims := [0, 1]
  scatterDimsToOperandDims := [0, 1]
  indexVectorDim := 2
  wf := wf

variable {B N D E K : Nat}
  (wf : ScatterDims.WF ⟨3, ![B, N, D]⟩ ⟨3, ![E, K, 2]⟩ ⟨3, ![E, K, D]⟩ [2] [0, 1] [0, 1] 2)
  (idx : IVec ⟨3, ![E, K, 2]⟩ 32) (j : (⟨3, ![E, K, D]⟩ : Shape).Idx)

/-- On operand axis 0 the window of update `j` starts at the first component of its pair, and has no extent. -/
theorem rows_pos_zero :
    (rowsDims B N D E K wf).start j idx 0 + ((rowsDims B N D E K wf).window j 0 : Int)
      = (idx (ix3 (j 0) (j 1) (0 : Fin 2))).toInt := by
  have hw : (rowsDims B N D E K wf).window j 0 = 0 := by
    unfold ScatterDims.window
    rw [dif_neg (fun h => ((mem_sKept _ _).mp h) (show (0 : Fin 3) ∈ ([0, 1] : List (Fin 3)) from by decide))]
  have hs : (rowsDims B N D E K wf).start j idx 0 = (idx (ix3 (j 0) (j 1) (0 : Fin 2))).toInt := by
    unfold ScatterDims.start
    rw [dif_pos (show (0 : Fin 3) ∈ ([0, 1] : List (Fin 3)) from by decide)]
    have hsi : (rowsDims B N D E K wf).siIdx j ⟨List.idxOf (0 : Fin 3) (rowsDims B N D E K wf).scatterDimsToOperandDims,
        List.idxOf_lt_length_iff.2 (show (0 : Fin 3) ∈ ([0, 1] : List (Fin 3)) from by decide)⟩ = ix3 (j 0) (j 1) (0 : Fin 2) := by
      funext b; refine Fin.ext ?_
      match b with
      | ⟨0, _⟩ => rfl
      | ⟨1, _⟩ => rfl
      | ⟨2, _⟩ => rfl
    rw [hsi]
    rfl
  rw [hw, hs]; simp

/-- On operand axis 1 the window of update `j` starts at the second component of its pair, and has no extent. -/
theorem rows_pos_one :
    (rowsDims B N D E K wf).start j idx 1 + ((rowsDims B N D E K wf).window j 1 : Int)
      = (idx (ix3 (j 0) (j 1) (1 : Fin 2))).toInt := by
  have hw : (rowsDims B N D E K wf).window j 1 = 0 := by
    unfold ScatterDims.window
    rw [dif_neg (fun h => ((mem_sKept _ _).mp h) (show (1 : Fin 3) ∈ ([0, 1] : List (Fin 3)) from by decide))]
  have hs : (rowsDims B N D E K wf).start j idx 1 = (idx (ix3 (j 0) (j 1) (1 : Fin 2))).toInt := by
    unfold ScatterDims.start
    rw [dif_pos (show (1 : Fin 3) ∈ ([0, 1] : List (Fin 3)) from by decide)]
    have hsi : (rowsDims B N D E K wf).siIdx j ⟨List.idxOf (1 : Fin 3) (rowsDims B N D E K wf).scatterDimsToOperandDims,
        List.idxOf_lt_length_iff.2 (show (1 : Fin 3) ∈ ([0, 1] : List (Fin 3)) from by decide)⟩ = ix3 (j 0) (j 1) (1 : Fin 2) := by
      funext b; refine Fin.ext ?_
      match b with
      | ⟨0, _⟩ => rfl
      | ⟨1, _⟩ => rfl
      | ⟨2, _⟩ => rfl
    rw [hsi]
    rfl
  rw [hw, hs]; simp

/-- On operand axis 2 the window of update `j` starts at `0` and the update sits at its own column `j₂`. -/
theorem rows_pos_two :
    (rowsDims B N D E K wf).start j idx 2 + ((rowsDims B N D E K wf).window j 2 : Int) = ((j 2).val : Int) := by
  have hs : (rowsDims B N D E K wf).start j idx 2 = 0 := by
    unfold ScatterDims.start
    rw [dif_neg (show (2 : Fin 3) ∉ ([0, 1] : List (Fin 3)) by decide)]
  have hw : (rowsDims B N D E K wf).window j 2 = (j 2).val := by
    unfold ScatterDims.window
    rw [dif_pos ((mem_sKept _ _).mpr (show (2 : Fin 3) ∉ ([0, 1] : List (Fin 3)) by decide))]
    rfl
  rw [hw, hs]; simp

/-- WHERE AN UPDATE LANDS: update `j = (e, k, c')` lands on element `(r, n, c)` exactly when its pair is `(r, n)` and
    `c' = c`. -/
theorem rows_resultIdx?_eq_some_iff (r : Fin B) (n : Fin N) (c : Fin D) :
    (rowsDims B N D E K wf).resultIdx? j idx = some (ix3 r n c) ↔ Lands idx r n (j 0, j 1) ∧ j 2 = c := by
  rw [resultIdx?_eq_some_iff]
  have h0 := rows_pos_zero wf idx j
  have h1 := rows_pos_one wf idx j
  have h2 := rows_pos_two wf idx j
  constructor
  · intro h
    have e0 := h 0; have e1 := h 1; have e2 := h 2
    rw [h0] at e0; rw [h1] at e1; rw [h2] at e2
    refine ⟨⟨e0, e1⟩, Fin.ext ?_⟩
    have : ((ix3 r n c : (⟨3, ![B, N, D]⟩ : Shape).Idx) 2).val = c.val := rfl
    omega
  · rintro ⟨⟨e0, e1⟩, e2⟩ a
    match a with
    | ⟨0, _⟩ => exact h0.trans e0
    | ⟨1, _⟩ => exact h1.trans e1
    | ⟨2, _⟩ => exact h2.trans (by rw [e2])

/-- The scatter-add of rows by index pairs at `(r, n, c)`, for the literal dimension numbers `rowsDims`: the updates that
    land on `(r, n, c)` are the `(e, k, c)` whose pair is `(r, n)`, one for each such `(e, k)`. -/
theorem scatterAdd_rowsDims_apply
    (x : FVec Ideal ⟨3, ![B, N, D]⟩ .f32) (upd : FVec Ideal ⟨3, ![E, K, D]⟩ .f32)
    (r : Fin B) (n : Fin N) (c : Fin D) [DecidablePred (Lands idx r n)] :
    Host.scatterAdd (F := Ideal) (rowsDims B N D E K wf) x idx upd (ix3 r n c)
      = x (ix3 r n c) + ∑ p ∈ Finset.univ.filter (Lands idx r n), upd (ix3 p.1 p.2 c) := by
  show Ideal.hostScatterAdd (rowsDims B N D E K wf) x idx upd (ix3 r n c) = _
  unfold Ideal.hostScatterAdd
  congr 1
  refine Finset.sum_nbij' (fun j : (⟨3, ![E, K, D]⟩ : Shape).Idx => ((j 0 : Fin E), (j 1 : Fin K)))
    (fun p : Fin E × Fin K => ix3 p.1 p.2 c) ?_ ?_ ?_ ?_ ?_
  · intro j hj
    exact Finset.mem_filter.mpr ⟨Finset.mem_univ _,
      ((rows_resultIdx?_eq_some_iff wf idx j r n c).mp (Finset.mem_filter.mp hj).2).1⟩
  · intro p hp
    exact Finset.mem_filter.mpr ⟨Finset.mem_univ _,
      (rows_resultIdx?_eq_some_iff wf idx (ix3 p.1 p.2 c) r n c).mpr ⟨(Finset.mem_filter.mp hp).2, rfl⟩⟩
  · intro j hj
    have hc := ((rows_resultIdx?_eq_some_iff wf idx j r n c).mp (Finset.mem_filter.mp hj).2).2
    show ix3 (j 0) (j 1) c = j
    rw [← hc]
    exact (eq_ix3 j).symm
  · intro p _
    rfl
  · intro j hj
    have hc := ((rows_resultIdx?_eq_some_iff wf idx j r n c).mp (Finset.mem_filter.mp hj).2).2
    show upd j = upd (ix3 (j 0) (j 1) c)
    rw [← hc]
    exact congrArg upd (eq_ix3 j)

/-- THE SCATTER-ADD OF ROWS BY INDEX PAIRS READ AT `(r, n, c)`: for any dimension numbers `d` whose fields are those of
    such a scatter (each hypothesis is `rfl` at a program's record), the result at `(r, n, c)` is the operand's element plus
    the sum, over the `(e, k)` whose pair read signed is exactly `(r, n)`, of the update's element `(e, k, c)`. -/
theorem scatterAdd_rows_apply (d : ScatterDims ⟨3, ![B, N, D]⟩ ⟨3, ![E, K, 2]⟩ ⟨3, ![E, K, D]⟩)
    (huw : d.updateWindowDims = [2]) (hiw : d.insertedWindowDims = [0, 1])
    (hsd : d.scatterDimsToOperandDims = [0, 1]) (hiv : d.indexVectorDim = 2)
    (x : FVec Ideal ⟨3, ![B, N, D]⟩ .f32) (upd : FVec Ideal ⟨3, ![E, K, D]⟩ .f32)
    (r : Fin B) (n : Fin N) (c : Fin D) [DecidablePred (Lands idx r n)] :
    Host.scatterAdd (F := Ideal) d x idx upd (ix3 r n c)
      = x (ix3 r n c) + ∑ p ∈ Finset.univ.filter (Lands idx r n), upd (ix3 p.1 p.2 c) := by
  obtain ⟨uw, iw, sd, iv, wf⟩ := d
  simp only at huw hiw hsd hiv
  subst huw hiw hsd hiv
  exact scatterAdd_rowsDims_apply wf idx x upd r n c

end Rows

/-! ## Single elements -/

section Elements

/-- The dimension numbers of a scatter of single elements by index pairs: operand `[B, N]`, scatter indices `[E, K, 2]`,
    updates `[E, K]`; no window axis, both operand axes are inserted and are the ones the pair names. -/
abbrev eltsDims (B N E K : Nat)
    (wf : ScatterDims.WF ⟨2, ![B, N]⟩ ⟨3, ![E, K, 2]⟩ ⟨2, ![E, K]⟩ [] [0, 1] [0, 1] 2) :
    ScatterDims ⟨2, ![B, N]⟩ ⟨3, ![E, K, 2]⟩ ⟨2, ![E, K]⟩ where
  updateWindowDims := []
  insertedWindowDims := [0, 1]
  scatterDimsToOperandDims := [0, 1]
  indexVectorDim := 2
  wf := wf

variable {B N E K : Nat}
  (wf : ScatterDims.WF ⟨2, ![B, N]⟩ ⟨3, ![E, K, 2]⟩ ⟨2, ![E, K]⟩ [] [0, 1] [0, 1] 2)
  (idx : IVec ⟨3, ![E, K, 2]⟩ 32) (j : (⟨2, ![E, K]⟩ : Shape).Idx)

/-- On operand axis 0 the window of update `j` starts at the first component of its pair, and has no extent. -/
theorem elts_pos_zero :
    (eltsDims B N E K wf).start j idx 0 + ((eltsDims B N E K wf).window j 0 : Int)
      = (idx (ix3 (j 0) (j 1) (0 : Fin 2))).toInt := by
  have hw : (eltsDims B N E K wf).window j 0 = 0 := by
    unfold ScatterDims.window
    rw [dif_neg (fun h => ((mem_sKept _ _).mp h) (show (0 : Fin 2) ∈ ([0, 1] : List (Fin 2)) from by decide))]
  have hs : (eltsDims B N E K wf).start j idx 0 = (idx (ix3 (j 0) (j 1) (0 : Fin 2))).toInt := by
    unfold ScatterDims.start
    rw [dif_pos (show (0 : Fin 2) ∈ ([0, 1] : List (Fin 2)) from by decide)]
    have hsi : (eltsDims B N E K wf).siIdx j ⟨List.idxOf (0 : Fin 2) (eltsDims B N E K wf).scatterDimsToOperandDims,
        List.idxOf_lt_length_iff.2 (show (0 : Fin 2) ∈ ([0, 1] : List (Fin 2)) from by decide)⟩ = ix3 (j 0) (j 1) (0 : Fin 2) := by
      funext b; refine Fin.ext ?_
      match b with
      | ⟨0, _⟩ => rfl
      | ⟨1, _⟩ => rfl
      | ⟨2, _⟩ => rfl
    rw [hsi]
    rfl
  rw [hw, hs]; simp

/-- On operand axis 1 the window of update `j` starts at the second component of its pair, and has no extent. -/
theorem elts_pos_one :
    (eltsDims B N E K wf).start j idx 1 + ((eltsDims B N E K wf).window j 1 : Int)
      = (idx (ix3 (j 0) (j 1) (1 : Fin 2))).toInt := by
  have hw : (eltsDims B N E K wf).window j 1 = 0 := by
    unfold ScatterDims.window
    rw [dif_neg (fun h => ((mem_sKept _ _).mp h) (show (1 : Fin 2) ∈ ([0, 1] : List (Fin 2)) from by decide))]
  have hs : (eltsDims B N E K wf).start j idx 1 = (idx (ix3 (j 0) (j 1) (1 : Fin 2))).toInt := by
    unfold ScatterDims.start
    rw [dif_pos (show (1 : Fin 2) ∈ ([0, 1] : List (Fin 2)) from by decide)]
    have hsi : (eltsDims B N E K wf).siIdx j ⟨List.idxOf (1 : Fin 2) (eltsDims B N E K wf).scatterDimsToOperandDims,
        List.idxOf_lt_length_iff.2 (show (1 : Fin 2) ∈ ([0, 1] : List (Fin 2)) from by decide)⟩ = ix3 (j 0) (j 1) (1 : Fin 2) := by
      funext b; refine Fin.ext ?_
      match b with
      | ⟨0, _⟩ => rfl
      | ⟨1, _⟩ => rfl
      | ⟨2, _⟩ => rfl
    rw [hsi]
    rfl
  rw [hw, hs]; simp

/-- WHERE AN UPDATE LANDS: update `j = (e, k)` lands on element `(r, n)` exactly when its pair is `(r, n)`. -/
theorem elts_resultIdx?_eq_some_iff (r : Fin B) (n : Fin N) :
    (eltsDims B N E K wf).resultIdx? j idx = some (ix2 r n) ↔ Lands idx r n (j 0, j 1) := by
  rw [resultIdx?_eq_some_iff]
  have h0 := elts_pos_zero wf idx j
  have h1 := elts_pos_one wf idx j
  constructor
  · intro h
    have e0 := h 0; have e1 := h 1
    rw [h0] at e0; rw [h1] at e1
    exact ⟨e0, e1⟩
  · rintro ⟨e0, e1⟩ a
    match a with
    | ⟨0, _⟩ => exact h0.trans e0
    | ⟨1, _⟩ => exact h1.trans e1

/-- The scatter-add of single elements by index pairs at `(r, n)`, for the literal dimension numbers `eltsDims`. -/
theorem scatterAdd_eltsDims_apply
    (x : FVec Ideal ⟨2, ![B, N]⟩ .f32) (upd : FVec Ideal ⟨2, ![E, K]⟩ .f32)
    (r : Fin B) (n : Fin N) [DecidablePred (Lands idx r n)] :
    Host.scatterAdd (F := Ideal) (eltsDims B N E K wf) x idx upd (ix2 r n)
      = x (ix2 r n) + ∑ p ∈ Finset.univ.filter (Lands idx r n), upd (ix2 p.1 p.2) := by
  show Ideal.hostScatterAdd (eltsDims B N E K wf) x idx upd (ix2 r n) = _
  unfold Ideal.hostScatterAdd
  congr 1
  refine Finset.sum_nbij' (fun j : (⟨2, ![E, K]⟩ : Shape).Idx => ((j 0 : Fin E), (j 1 : Fin K)))
    (fun p : Fin E × Fin K => ix2 p.1 p.2) ?_ ?_ ?_ ?_ ?_
  · intro j hj
    exact Finset.mem_filter.mpr ⟨Finset.mem_univ _,
      (elts_resultIdx?_eq_some_iff wf idx j r n).mp (Finset.mem_filter.mp hj).2⟩
  · intro p hp
    exact Finset.mem_filter.mpr ⟨Finset.mem_univ _,
      (elts_resultIdx?_eq_some_iff wf idx (ix2 p.1 p.2) r n).mpr (Finset.mem_filter.mp hp).2⟩
  · intro j _
    exact (eq_ix2 j).symm
  · intro p _
    rfl
  · intro j _
    exact congrArg upd (eq_ix2 j)

/-- THE SCATTER-ADD OF SINGLE ELEMENTS BY INDEX PAIRS READ AT `(r, n)`: for any dimension numbers `d` whose fields are those
    of such a scatter (each hypothesis is `rfl` at a program's record), the result at `(r, n)` is the operand's element plus
    the sum, over the `(e, k)` whose pair read signed is exactly `(r, n)`, of the update's element `(e, k)`. -/
theorem scatterAdd_elts_apply (d : ScatterDims ⟨2, ![B, N]⟩ ⟨3, ![E, K, 2]⟩ ⟨2, ![E, K]⟩)
    (huw : d.updateWindowDims = []) (hiw : d.insertedWindowDims = [0, 1])
    (hsd : d.scatterDimsToOperandDims = [0, 1]) (hiv : d.indexVectorDim = 2)
    (x : FVec Ideal ⟨2, ![B, N]⟩ .f32) (upd : FVec Ideal ⟨2, ![E, K]⟩ .f32)
    (r : Fin B) (n : Fin N) [DecidablePred (Lands idx r n)] :
    Host.scatterAdd (F := Ideal) d x idx upd (ix2 r n)
      = x (ix2 r n) + ∑ p ∈ Finset.univ.filter (Lands idx r n), upd (ix2 p.1 p.2) := by
  obtain ⟨uw, iw, sd, iv, wf⟩ := d
  simp only at huw hiw hsd hiv
  subst huw hiw hsd hiv
  exact scatterAdd_eltsDims_apply wf idx x upd r n

end Elements

/-! ## Rows that carry their own row's value, against a count -/

/-- A scatter of rows by index pairs in which every update `(e, k, ·)` carries the value `δ e ·` of its own first index
    `e`, and the first component of every pair is that `e` (the update of batch `e` goes into batch `e`), is the operand
    plus `δ r c` times the number of updates landing on `(r, n)` — that number being the scatter of ones into zeros by the
    same pairs. -/
theorem scatter_rows_eq_count {B N D K : Nat}
    (d3 : ScatterDims ⟨3, ![B, N, D]⟩ ⟨3, ![B, K, 2]⟩ ⟨3, ![B, K, D]⟩)
    (huw3 : d3.updateWindowDims = [2]) (hiw3 : d3.insertedWindowDims = [0, 1])
    (hsd3 : d3.scatterDimsToOperandDims = [0, 1]) (hiv3 : d3.indexVectorDim = 2)
    (d2 : ScatterDims ⟨2, ![B, N]⟩ ⟨3, ![B, K, 2]⟩ ⟨2, ![B, K]⟩)
    (huw2 : d2.updateWindowDims = []) (hiw2 : d2.insertedWindowDims = [0, 1])
    (hsd2 : d2.scatterDimsToOperandDims = [0, 1]) (hiv2 : d2.indexVectorDim = 2)
    (img : FVec Ideal ⟨3, ![B, N, D]⟩ .f32) (idx : IVec ⟨3, ![B, K, 2]⟩ 32)
    (hfirst : ∀ (e : Fin B) (k : Fin K), (idx (ix3 e k (0 : Fin 2))).toInt = (e.val : Int))
    (upd : FVec Ideal ⟨3, ![B, K, D]⟩ .f32) (δ : Fin B → Fin D → EReal)
    (hupd : ∀ (e : Fin B) (k : Fin K) (c : Fin D), upd (ix3 e k c) = δ e c)
    (zeros : FVec Ideal ⟨2, ![B, N]⟩ .f32) (hz : ∀ i, zeros i = (0 : EReal))
    (ones : FVec Ideal ⟨2, ![B, K]⟩ .f32) (ho : ∀ i, ones i = (1 : EReal))
    (r : Fin B) (n : Fin N) (c : Fin D) :
    Host.scatterAdd (F := Ideal) d3 img idx upd (ix3 r n c)
      = (img (ix3 r n c) : EReal) + δ r c * (Host.scatterAdd (F := Ideal) d2 zeros idx ones (ix2 r n) : EReal) := by
  classical
  rw [scatterAdd_rows_apply idx d3 huw3 hiw3 hsd3 hiv3 img upd r n c,
    scatterAdd_elts_apply idx d2 huw2 hiw2 hsd2 hiv2 zeros ones r n]
  congr 1
  rw [hz]
  simp only [ho, hupd]
  rw [mul_count_eq_sum]
  refine Finset.sum_congr rfl fun p hp => ?_
  have h0 := (Finset.mem_filter.mp hp).2.1
  rw [hfirst] at h0
  have : p.1 = r := Fin.ext (by omega)
  rw [this]

end Cert.PairScatter

end
-- ==== Proof.Bridge.lean ====
/-
  The kernel's array and the reference's array are one function of the arguments, on the extended reals.

  With `δ[b, d]` the direction and `P` the index pairs (both the same terms of the arguments in the two programs):
  the reference adds `δ[e, ·]` into row `(r, n)` of the image once for every `(e, k)` whose pair is `(r, n)`; the kernel adds
  `δ[r, ·]` times the NUMBER of such `(e, k)`. The first component of pair `(e, k)` is `e`, so every landing update has `e = r`
  and carries `δ[r, ·]`; and a value added once per element of a finite set is that value times the set's count — on the
  extended reals too, the count being a sum of ones. No finiteness of the inputs is used.
-/
import proofs.«124215_j5935644803459_1_alg».proof.Proof.KernelArray
import proofs.«124215_j5935644803459_1_alg».proof.Proof.HostArrays
import proofs.«124215_j5935644803459_1_alg».proof.Proof.IndexPairs
import proofs.«124215_j5935644803459_1_alg».proof.Proof.LibPairScatter
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx
open Cert.ReferenceIdeal.Read

/-- The reference's update tensor `[64, 16, 1024]` at `(e, k, c)` is the direction at `(e, c)`, whatever `k`. -/
theorem update_apply (x1 x3 : (⟨Cert.ReferenceIdeal.S64x1024, .f32⟩ : BufTy).Contents (Elt Ideal))
    (x4 : (⟨Cert.ReferenceIdeal.S64, .i1⟩ : BufTy).Contents (Elt Ideal))
    (x5 : (⟨Cert.ReferenceIdeal.S_, .f32⟩ : BufTy).Contents (Elt Ideal)) (e : Fin 64) (k : Fin 16) (c : Fin 1024) :
    val_main_v40 (F := Ideal) x1 x3 x4 x5 (ix3 e k c) = val_main_v22 (F := Ideal) x1 x3 x4 x5 (ix2 e c) := by
  rw [val_main_v40_apply, val_main_v25_apply]
  exact congrArg _ (funext fun a => Fin.ext (by match a with | ⟨0, _⟩ => rfl | ⟨1, _⟩ => rfl))

/-- THE TWO RESULT ARRAYS ARE EQUAL: the kernel's `img + δ · count`, read through the two reshapes, is the reference's
    scatter-add of `δ`'s rows into the image. -/
theorem result_eq (x0 : (⟨Cert.ReferenceIdeal.S64x576x1024, .f32⟩ : BufTy).Contents (Elt Ideal))
    (x1 : (⟨Cert.ReferenceIdeal.S64x1024, .f32⟩ : BufTy).Contents (Elt Ideal))
    (x2 : (⟨Cert.ReferenceIdeal.S64x16, .i32⟩ : BufTy).Contents (Elt Ideal))
    (x3 : (⟨Cert.ReferenceIdeal.S64x1024, .f32⟩ : BufTy).Contents (Elt Ideal))
    (x4 : (⟨Cert.ReferenceIdeal.S64, .i1⟩ : BufTy).Contents (Elt Ideal))
    (x5 : (⟨Cert.ReferenceIdeal.S_, .f32⟩ : BufTy).Contents (Elt Ideal)) :
    Cert.KernelIdeal.Array.cell (F := Ideal) x0
        (shapeCast Cert.KernelIdeal.S64x1x1024 (val_main_v22 (F := Ideal) x1 x3 x4 x5)
          Cert.KernelIdeal.Facts₀.shapeCasts_S64x1024_S64x1x1024)
        (shapeCast Cert.KernelIdeal.S64x576x1 (Cert.KernelIdeal.HostArrays.count (F := Ideal) (val_main_v39 (F := Ideal) x2))
          Cert.KernelIdeal.Facts₀.shapeCasts_S64x576_S64x576x1)
      = val_main_v41 (F := Ideal) x0 x1 x2 x3 x4 x5 := by
  funext i
  obtain ⟨r, n, c, rfl⟩ : ∃ (r : Fin 64) (n : Fin 576) (c : Fin 1024), i = ix3 r n c := ⟨i 0, i 1, i 2, eq_ix3 i⟩
  have hd : shapeCast Cert.KernelIdeal.S64x1x1024 (val_main_v22 (F := Ideal) x1 x3 x4 x5)
      Cert.KernelIdeal.Facts₀.shapeCasts_S64x1024_S64x1x1024 (Cert.KernelIdeal.Array.dirAt (ix3 r n c))
      = val_main_v22 (F := Ideal) x1 x3 x4 x5 (ix2 r c) := by
    refine shapeCast_apply _ _ _ _ ?_
    rw [Shape.rowMajor_val_two, Shape.rowMajor_val_three]
    show r.val * 1024 + c.val = (r.val * 1 + 0) * 1024 + c.val
    omega
  have hc : shapeCast Cert.KernelIdeal.S64x576x1 (Cert.KernelIdeal.HostArrays.count (F := Ideal) (val_main_v39 (F := Ideal) x2))
      Cert.KernelIdeal.Facts₀.shapeCasts_S64x576_S64x576x1 (Cert.KernelIdeal.Array.cntAt (ix3 r n c))
      = Cert.KernelIdeal.HostArrays.count (F := Ideal) (val_main_v39 (F := Ideal) x2) (ix2 r n) := by
    refine shapeCast_apply _ _ _ _ ?_
    rw [Shape.rowMajor_val_two, Shape.rowMajor_val_three]
    show r.val * 576 + n.val = (r.val * 576 + n.val) * 1 + 0
    omega
  show (x0 (ix3 r n c) : EReal) + (shapeCast Cert.KernelIdeal.S64x1x1024 (val_main_v22 (F := Ideal) x1 x3 x4 x5)
      Cert.KernelIdeal.Facts₀.shapeCasts_S64x1024_S64x1x1024 (Cert.KernelIdeal.Array.dirAt (ix3 r n c)) : EReal)
    * (shapeCast Cert.KernelIdeal.S64x576x1 (Cert.KernelIdeal.HostArrays.count (F := Ideal) (val_main_v39 (F := Ideal) x2))
      Cert.KernelIdeal.Facts₀.shapeCasts_S64x576_S64x576x1 (Cert.KernelIdeal.Array.cntAt (ix3 r n c)) : EReal) = _
  rw [hd, hc]
  unfold val_main_v41
  exact (Cert.PairScatter.scatter_rows_eq_count (B := 64) (N := 576) (D := 1024) (K := 16)
    Cert.ReferenceIdeal.scatter_S64x576x1024_S64x16x2_S64x16x1024_2_01_01_2 rfl rfl rfl rfl
    Cert.KernelIdeal.scatter_S64x576_S64x16x2_S64x16_n_01_01_2 rfl rfl rfl rfl
    x0 (val_main_v39 (F := Ideal) x2) (Cert.ReferenceIdeal.Pairs.pair_first x2)
    (val_main_v40 (F := Ideal) x1 x3 x4 x5) (fun e c => val_main_v22 (F := Ideal) x1 x3 x4 x5 (ix2 e c))
    (update_apply x1 x3 x4 x5)
    (broadcastInDim Cert.KernelIdeal.S64x576 ![] Cert.KernelIdeal.Facts₀.bcast_S_S64x576
      (constant (F := Ideal) Cert.KernelIdeal.S_ .f32 0x00000000#32))
    (fun _ => Ideal.ofBits_zero_f32)
    (broadcastInDim Cert.KernelIdeal.S64x16 ![] Cert.KernelIdeal.Facts₀.bcast_S_S64x16
      (constant (F := Ideal) Cert.KernelIdeal.S_ .f32 0x3F800000#32))
    (fun _ => Ideal.ofBits_one_f32)
    r n c).symm

end Cert.Bridge

end
-- ==== Proof.lean ====
/-
  A masked scatter-add of one direction per batch into selected token rows, as a streaming multiply-add, against the
  scatter itself.

  Both programs compute, from the arguments alone and by the same host operations, a direction `δ[b, ·]` per batch (the
  difference of two normalised vectors, scaled and masked) and, for each batch `b` and each of its 16 selected rows, the
  index pair (batch, row). The reference scatters, adding, `δ[b, ·]` into row `(b, row)` of the image for every pair, repeated
  pairs accumulating and pairs outside the image dropped. The kernel first counts, with a scatter-add of ones, how many
  pairs name each (batch, row), and then streams the image once: `out[b, n, d] = img[b, n, d] + δ[b, d] · count[b, n]`.

  On the extended reals the two agree element by element: the updates landing on `(b, n, ·)` all come from batch `b` (the
  first component of a pair is its batch), so the reference adds `δ[b, d]` once per landing pair, and a value added once per
  element of a finite set is the value times the set's count (Proof/LibPairScatter.lean, `mul_count_eq_sum`; it holds at
  the infinities, so the inputs' finiteness is never opened). What the kernel's result array holds after the run is read
  off its frame run block by block (Proof/KernelArray.lean); the two arrays the host hands the region are the reference's own
  stages reshaped (Proof/HostArrays.lean); the two terms are one function in Proof/Bridge.lean. The three programs run,
  without fault and leaving their arguments unchanged, by their generated frames; the idealization rewrote nothing, so
  `preserves` has no conjunct.
-/
import proofs.«124215_j5935644803459_1_alg».proof.Defs
import proofs.«124215_j5935644803459_1_alg».proof.Proof.Gen.Kernel
import proofs.«124215_j5935644803459_1_alg».proof.Proof.Gen.Kernel.Frame
import proofs.«124215_j5935644803459_1_alg».proof.Proof.Gen.KernelIdeal
import proofs.«124215_j5935644803459_1_alg».proof.Proof.Gen.KernelIdeal.Frame
import proofs.«124215_j5935644803459_1_alg».proof.Proof.Gen.KernelIdeal.Value
import proofs.«124215_j5935644803459_1_alg».proof.Proof.Gen.ReferenceIdeal
import proofs.«124215_j5935644803459_1_alg».proof.Proof.Gen.ReferenceIdeal.Run
import proofs.«124215_j5935644803459_1_alg».proof.Proof.Gen.ReferenceIdeal.Read
import proofs.«124215_j5935644803459_1_alg».proof.Proof.Gen.Pre_finite_inputs
import proofs.«124215_j5935644803459_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal instance the kernel's result array ends at `img + δ · count` of the arrays the region finds, which are the
    reference's `δ` and the count by the reference's index pairs; the reference's ends at the scatter-add of `δ`'s rows by
    those pairs: equal element by element (`Cert.Bridge.result_eq`), the arguments agreeing. -/
theorem algebraic : Cert.algebraic_KernelIdeal_ReferenceIdeal := by
  intro m ρ m' ρ' _ hagree
  refine ⟨fun c => Cert.KernelIdeal.Array.cell (F := Ideal) (Cert.KernelIdeal.Gen.V m c Cert.KernelIdeal.main_arg0)
      (Cert.KernelIdeal.Gen.V m c Cert.KernelIdeal.main_v42) (Cert.KernelIdeal.Gen.V m c Cert.KernelIdeal.main_v43), ?_, ?_⟩
  · exact (θ_run Cert.KernelIdeal.defs _ _).mono
      (fun r h c => ⟨(h c).1.trans (Cert.KernelIdeal.Array.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, (hagree c).1, (hagree c).2.1, (hagree c).2.2.1, (hagree c).2.2.2.1,
      (hagree c).2.2.2.2.1, (hagree c).2.2.2.2.2]
    dsimp only
    rw [Cert.KernelIdeal.Gen.V_main_arg0, Cert.KernelIdeal.HostArrays.V_main_v42, Cert.KernelIdeal.HostArrays.V_main_v43]
    exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
